-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x1 : Shape := ⟨2, ![1600000, 1]⟩
abbrev S96x64 : Shape := ⟨2, ![96, 64]⟩
abbrev S64 : Shape := ⟨1, ![64]⟩
abbrev S64x64 : Shape := ⟨2, ![64, 64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x32 .f32) (main_arg1 : IVec S2x1600000 32) (main_arg2 : FVec F S1600000x1 .f32) (main_arg3 : FVec F S96x64 .f32) (main_arg4 : FVec F S64 .f32) (main_arg5 : FVec F S64x64 .f32) (main_arg6 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S96x64 .f32 := Host.absf main_arg3
  let main_cst_2 : FVec F S_ .f32 := constant S_ .f32 0x7F800000#32
  let main_v10 : FVec F S96x64 .f32 := broadcastInDim S96x64 ![] bcast_S_S96x64 main_cst_2
  let main_v11 : IVec S96x64 1 := cmpf .olt main_v9 main_v10
  let main_c_3 : IVec S_ 1 := constantI S_ 1 1#1
  let main_v12 : IVec S_ 1 := (fun x v => Host.reduce IntOp.andi x v reducesTo_S96x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x32 : Shape := ⟨2, ![100000, 32]⟩
abbrev S2x1600000 : Shape := ⟨2, ![2, 1600000]⟩
abbrev S1600000x1 : Shape := ⟨2, ![1600000, 1]⟩
abbrev S96x64 : Shape := ⟨2, ![96, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x32 : Shape := ⟨2, ![1600000, 32]⟩
abbrev S100000x96 : Shape := ⟨2, ![100000, 96]⟩
abbrev S100000x64 : Shape := ⟨2, ![100000, 64]⟩
abbrev S5000x96 : Shape := ⟨2, ![5000, 96]⟩
abbrev S5000x64 : Shape := ⟨2, ![5000, 64]⟩
abbrev S1x64 : Shape := ⟨2, ![1, 64]⟩

abbrev nBuf : Space → Nat
  | .hbm => 43
  | .vmem => 8
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x1, .f32⟩
  | .hbm, ⟨3, _⟩ => ⟨S96x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x32, .f32⟩
  | .hbm, ⟨20, _⟩ => ⟨S1600000x32, .f32⟩
  | .hbm, ⟨21, _⟩ => ⟨S1600000x32, .f32⟩
  | .hbm, ⟨22, _⟩ => ⟨S_, .f32⟩
  | .hbm, ⟨23, _⟩ => ⟨S100000x32, .f32⟩
  | .hbm, ⟨24, _⟩ => ⟨S1600000x1, .i32⟩
  | .hbm, ⟨25, _⟩ => ⟨S100000x32, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x32, .f32⟩
  | .hbm, ⟨35, _⟩ => ⟨S1600000x32, .f32⟩
  | .hbm, ⟨36, _⟩ => ⟨S1600000x32, .f32⟩
  | .hbm, ⟨37, _⟩ => ⟨S_, .f32⟩
  | .hbm, ⟨38, _⟩ => ⟨S100000x32, .f32⟩
  | .hbm, ⟨39, _⟩ => ⟨S1600000x1, .i32⟩
  | .hbm, ⟨40, _⟩ => ⟨S100000x32, .f32⟩
  | .hbm, ⟨41, _⟩ => ⟨S100000x96, .f32⟩
  | .hbm, ⟨42, _⟩ => ⟨S100000x64, .f32⟩
  | .local _ .vmem, ⟨0, _⟩ => ⟨S5000x96, .f32⟩
  | .local _ .vmem, ⟨1, _⟩ => ⟨S5000x96, .f32⟩
  | .local _ .vmem, ⟨2, _⟩ => ⟨S96x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  concatenates_S100000x32_S100000x32_S100000x32_S100000x96_d1 : Shape.Concatenates [S100000x32, S100000x32, S100000x32] S100000x96 1
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x64_S96x64_0_0 : ∀ a, (![0, 0] : Fin 2 → Nat) a + S96x64.size a ≤ S96x64.size a
  h_S96x64 : 0 < S96x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x96_S96x64_S5000x64_1_0_0_1_n_n_wf : DotDims.WF S5000x96 S96x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S100000x96.size a
  hwx0_0 : ∀ i : grid0.Coords, EltTy.bits .f32 = 32 ∨ (Rect.block (s := S100000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x64.size a ≤ S96x64.size a
  hwx0_1 : ∀ i : grid0.Coords, EltTy.bits .f32 = 32 ∨ (Rect.block (s := S96x64) S96x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v28) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S96x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x1 : Shape := ⟨2, ![1600000, 1]⟩
abbrev S96x64 : Shape := ⟨2, ![96, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x32 : Shape := ⟨2, ![1600000, 32]⟩
abbrev S100000x96 : Shape := ⟨2, ![100000, 96]⟩
abbrev S100000x64 : Shape := ⟨2, ![100000, 64]⟩
abbrev S1x64 : Shape := ⟨2, ![1, 64]⟩

abbrev nBuf : Space → Nat
  | .hbm => 52
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x1, .f32⟩
  | .hbm, ⟨3, _⟩ => ⟨S96x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x32, .f32⟩
  | .hbm, ⟨20, _⟩ => ⟨S1600000x32, .f32⟩
  | .hbm, ⟨21, _⟩ => ⟨S1600000x32, .f32⟩
  | .hbm, ⟨22, _⟩ => ⟨S_, .f32⟩
  | .hbm, ⟨23, _⟩ => ⟨S100000x32, .f32⟩
  | .hbm, ⟨24, _⟩ => ⟨S1600000x1, .i32⟩
  | .hbm, ⟨25, _⟩ => ⟨S100000x32, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x32, .f32⟩
  | .hbm, ⟨35, _⟩ => ⟨S1600000x32, .f32⟩
  | .hbm, ⟨36, _⟩ => ⟨S1600000x32, .f32⟩
  | .hbm, ⟨37, _⟩ => ⟨S_, .f32⟩
  | .hbm, ⟨38, _⟩ => ⟨S100000x32, .f32⟩
  | .hbm, ⟨39, _⟩ => ⟨S1600000x1, .i32⟩
  | .hbm, ⟨40, _⟩ => ⟨S100000x32, .f32⟩
  | .hbm, ⟨41, _⟩ => ⟨S100000x96, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S100000x64, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  concatenates_S100000x32_S100000x32_S100000x32_S100000x96_d1 : Shape.Concatenates [S100000x32, S100000x32, S100000x32] S100000x96 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x96_S96x64_S100000x64_1_0_0_1_n_n_wf : DotDims.WF S100000x96 S96x64 S100000x64 [1] [0] [0] [1] [] []
  dot_S100000x64_S64x64_S100000x64_1_0_0_1_n_n_wf : DotDims.WF S100000x64 S64x64 S100000x64 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x96_S96x64_S100000x64_1_0_0_1_n_n : DotDims S100000x96 S96x64 S100000x64 where
  lhsContracting := [1]
  rhsContracting := [0]
  lhsNonContracting := [0]
  rhsNonContracting := [1]
  lhsBatch := []
  rhsBatch := []
  wf := dot_S100000x96_S96x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.BitsEntry.lean ====
/-
  What the one pallas_call of Kernel finds in HBM. Before the region @main runs thirty-five host
  operations: the two rows of the edge list are sliced out, negative entries wrapped by the node
  count, the node features gathered along each row and scaled by the edge weight, the scaled
  messages summed into their target nodes (twice, once per direction), and the two sums laid beside
  the node features as one [100000, 96] matrix. Every one of these writes a buffer of its own, so the
  seven argument arrays reach the region exactly as launched.
-/
import proofs.«135378_j26182120636656_1_alg».proof.Proof.Gen.Kernel.Launch
import Idealize.ShloMosaic.Lib.Pipeline.Frame
import Idealize.ShloMosaic.Lib.StableHlo.Run

noncomputable section

namespace Cert.Kernel.Region

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- Core `c`'s buffers when the region is entered: the launch memory after the host operations. -/
abbrev entry (c : Dev nD) (b : Ref sig .tc) : Buf (Elt F) ((c : Thread nD τ).loc b) :=
  StableHlo.after hostOps0 (fun b => m (c, b)) b

/-- No host operation allocates: each writes a buffer the signature already has. -/
theorem glue_fresh : (hostOps0 : List (HloOp τ sig (Elt F))).Forall fun op => op.fresh = ∅ := by
  simp only [List.Forall]; repeat' constructor

/-- @main is the host operations and then the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub glue_fresh main_chain

/-- A reference none of the thirty-five operations writes is found as launched: each operation's one result
    buffer is told apart from it as a reference. -/
local macro "glue_keeps" : tactic => `(tactic| (
  refine StableHlo.after_of_forall_not_mem _ _ (List.forall_iff_forall_mem.mp ?_)
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

/-- The node features reach the region as launched. -/
theorem entry_x (c : Dev nD) : entry m c main_arg0 = m ((c : Thread nD τ).loc main_arg0) := by glue_keeps
/-- The edge list reaches the region as launched. -/
theorem entry_edges (c : Dev nD) : entry m c main_arg1 = m ((c : Thread nD τ).loc main_arg1) := by glue_keeps
/-- The edge weights reach the region as launched. -/
theorem entry_weights (c : Dev nD) : entry m c main_arg2 = m ((c : Thread nD τ).loc main_arg2) := by glue_keeps
/-- The first layer's matrix reaches the region as launched. -/
theorem entry_W1 (c : Dev nD) : entry m c main_arg3 = m ((c : Thread nD τ).loc main_arg3) := by glue_keeps
/-- The first layer's bias reaches the region as launched. -/
theorem entry_b1 (c : Dev nD) : entry m c main_arg4 = m ((c : Thread nD τ).loc main_arg4) := by glue_keeps
/-- The second layer's matrix reaches the region as launched. -/
theorem entry_W2 (c : Dev nD) : entry m c main_arg5 = m ((c : Thread nD τ).loc main_arg5) := by glue_keeps
/-- The second layer's bias reaches the region as launched. -/
theorem entry_b2 (c : Dev nD) : entry m c main_arg6 = m ((c : Thread nD τ).loc main_arg6) := by glue_keeps

end Cert.Kernel.Region

end
-- ==== Proof.BitsBody.lean ====
/-
  The kernel body on one tile of nodes. It loads the tile of the joined matrix (5000 rows of 96
  features), the two weight matrices and the two bias rows, computes the two-layer perceptron
  row by row — first layer product plus bias through tanh, second layer product plus bias through
  tanh — and stores the 5000 × 64 result over the WHOLE output block. It also loads the output
  block first, a value it never uses, so the block may hold anything when the body starts.
  What the body leaves in the output block is therefore one pure function of the five loaded
  blocks: the skeleton's payload.
-/
import proofs.«135378_j26182120636656_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The offsets of every access of the body are zero: on two axes, -/
theorem zeros2 : (![0, 0] : Fin 2 → Nat) = fun _ => 0 := by
  funext a; fin_cases a <;> rfl
/-- and on one. -/
theorem zeros1 : (![0] : Fin 1 → Nat) = fun _ => 0 := by
  funext a; fin_cases a; rfl

/-- The one store's rectangle is the whole output block. -/
abbrev outRect : Rect S5000x64 := Rect.unit (s := S5000x64) ![0, 0] S5000x64.size inb_S5000x64_S5000x64_0_0

set_option maxHeartbeats 1000000 in
/-- The body on whole staging buffers — the five inputs' at contents `x`, `w1`, `b1`, `w2`, `b2`, the output's at
    anything — runs to its end holding the inputs' as they were and the output's at the perceptron of the five. -/
theorem body_triple (c : Dev nD) (E : Set ℕ) (i : grid0.Coords)
    (arg1 : Memref sig .tc .vmem S5000x96 .f32) (harg1 : arg1.IsWhole) (arg2 : Memref sig .tc .vmem S96x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S5000x64 .f32) (harg6 : arg6.IsWhole)
    (x : Vec F S5000x96 .f32) (w1 : Vec F S96x64 .f32) (b1 : Vec F S64 .f32) (w2 : Vec F S64x64 .f32) (b2 : Vec F S64 .f32)
    (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (k0_pay1 x w1 b1 w2 b2)) -∗ K ⟨⟩))
      ⊢ wp frame (wpE (defs₀ (F := F)) Variants.none c none) E
          (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero zeros2 inb_S5000x64_S5000x64_0_0 y⟩),
    View.canon_unit_zero zeros2]
  simp only [View.readAt_eq_ld, View.ld_unit_zero (S := S5000x96) zeros2, View.ld_unit_zero (S := S96x64) zeros2,
    View.ld_unit_zero (S := S64x64) zeros2, View.ld_unit_zero (S := S64) zeros1]

end Cert.Kernel.Region

end
-- ==== Proof.BitsRegion.lean ====
/-
  The one region of Kernel, launched. The grid has twenty points; point `t` is handed rows
  5000·t … 5000·t + 4999 of the joined matrix and the same whole weight matrices and bias rows
  every time, and writes back rows 5000·t … of the result. The proof data says what each staging
  buffer holds after the body: an input's still its block, the output's the perceptron of the five
  input blocks. With the body's triple this is the body obligation at every point, the launch
  theorem then runs @main to its end, and the argument arrays — three of them bypass the region,
  four are read-only windows of it — end as launched.
-/
import proofs.«135378_j26182120636656_1_alg».proof.Proof.Gen.Kernel.Points
import proofs.«135378_j26182120636656_1_alg».proof.Proof.BitsEntry
import proofs.«135378_j26182120636656_1_alg».proof.Proof.BitsBody

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the proof data -/

/-- Window `w`'s block at point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The proof data on core `c`: the arrays as the region finds them; after the body at point `t` each input's buffer
    still at its block and the output's at the perceptron of the five blocks; the invariant the scoped rest and the
    generator register, which the body never touches; nothing owed, full shares. -/
def stages (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => k0_pay1 (tile m c 0 t) (tile m c 1 t) (tile m c 2 t) (tile m c 3 t) (tile m c 4 t)
  Φ _ := Pipeline.ΦA spec0 c
  q _ := fullShare
  owed _ := 0

/-- The proof data's arrays are the region-entry contents. -/
theorem stages_A (c : Dev nD) (w : Fin cfg0.W) : (stages m 0 c).A w = entry m c (Pipeline.arrRef spec0 w) := by
  dsimp only [stages]

/-- What the body leaves, window by window. -/
theorem after_rows (c : Dev nD) (t : Fin cfg0.N) : (stages m 0 c).after 0 t = tile m c 0 t := by dsimp only [stages]
theorem after_W1 (c : Dev nD) (t : Fin cfg0.N) : (stages m 0 c).after 1 t = tile m c 1 t := by dsimp only [stages]
theorem after_b1 (c : Dev nD) (t : Fin cfg0.N) : (stages m 0 c).after 2 t = tile m c 2 t := by dsimp only [stages]
theorem after_W2 (c : Dev nD) (t : Fin cfg0.N) : (stages m 0 c).after 3 t = tile m c 3 t := by dsimp only [stages]
theorem after_b2 (c : Dev nD) (t : Fin cfg0.N) : (stages m 0 c).after 4 t = tile m c 4 t := by dsimp only [stages]
theorem after_out (c : Dev nD) (t : Fin cfg0.N) :
    (stages m 0 c).after 5 t = k0_pay1 (tile m c 0 t) (tile m c 1 t) (tile m c 2 t) (tile m c 3 t) (tile m c 4 t) := by
  dsimp only [stages]

/-! ## What the body is handed

An input's current staging buffer holds its block at every point, whether the pipeline fetched it there or not:
the row tile is fetched at every point; the weights and biases are fetched once, their block index never moves,
and the body leaves them in place. -/

theorem before_rows (c : Dev nD) (t : Fin cfg0.N) (d) : (stages m 0 c).before 0 t d = tile m c 0 t :=
  ((stages m 0 c).before_in_eq_fetched 0 rfl (fun _ => rfl) (fun _ _ _ => rfl)
      (fun t => by rw [after_rows]; unfold Dat.blockOf tile; rw [stages_A]; try rfl) t d).trans
    (by unfold Dat.fetched Dat.blockOf tile; rw [stages_A]; try rfl)
theorem before_W1 (c : Dev nD) (t : Fin cfg0.N) (d) : (stages m 0 c).before 1 t d = tile m c 1 t :=
  ((stages m 0 c).before_in_eq_fetched 1 rfl (fun _ => rfl) (fun _ _ _ => rfl)
      (fun t => by rw [after_W1]; unfold Dat.blockOf tile; rw [stages_A]; try rfl) t d).trans
    (by unfold Dat.fetched Dat.blockOf tile; rw [stages_A]; try rfl)
theorem before_b1 (c : Dev nD) (t : Fin cfg0.N) (d) : (stages m 0 c).before 2 t d = tile m c 2 t :=
  ((stages m 0 c).before_in_eq_fetched 2 rfl (fun _ => rfl) (fun _ _ _ => rfl)
      (fun t => by rw [after_b1]; unfold Dat.blockOf tile; rw [stages_A]; try rfl) t d).trans
    (by unfold Dat.fetched Dat.blockOf tile; rw [stages_A]; try rfl)
theorem before_W2 (c : Dev nD) (t : Fin cfg0.N) (d) : (stages m 0 c).before 3 t d = tile m c 3 t :=
  ((stages m 0 c).before_in_eq_fetched 3 rfl (fun _ => rfl) (fun _ _ _ => rfl)
      (fun t => by rw [after_W2]; unfold Dat.blockOf tile; rw [stages_A]; try rfl) t d).trans
    (by unfold Dat.fetched Dat.blockOf tile; rw [stages_A]; try rfl)
theorem before_b2 (c : Dev nD) (t : Fin cfg0.N) (d) : (stages m 0 c).before 4 t d = tile m c 4 t :=
  ((stages m 0 c).before_in_eq_fetched 4 rfl (fun _ => rfl) (fun _ _ _ => rfl)
      (fun t => by rw [after_b2]; unfold Dat.blockOf tile; rw [stages_A]; try rfl) t d).trans
    (by unfold Dat.fetched Dat.blockOf tile; rw [stages_A]; try rfl)

/-! ## The body obligation -/

/-- What the body is called with at point `t`, the windows one by one, -/
def handed (c : Dev nD) (t : Fin cfg0.N) : sProp 𝕄 :=
  iprop((stages m 0 c).Φ t.castSucc ∗ (stages m 0 c).owesAt () t.castSucc
    ∗ (∃ d, owns (c : Thread nD τ) (st0_0 t) fullShare ((stages m 0 c).before 0 t d))
    ∗ (∃ d, owns (c : Thread nD τ) (st0_1 t) fullShare ((stages m 0 c).before 1 t d))
    ∗ (∃ d, owns (c : Thread nD τ) (st0_2 t) fullShare ((stages m 0 c).before 2 t d))
    ∗ (∃ d, owns (c : Thread nD τ) (st0_3 t) fullShare ((stages m 0 c).before 3 t d))
    ∗ (∃ d, owns (c : Thread nD τ) (st0_4 t) fullShare ((stages m 0 c).before 4 t d))
    ∗ (∃ d, owns (c : Thread nD τ) (st0_5 t) fullShare ((stages m 0 c).before 5 t d)))

/-- and what it returns. -/
def returned (c : Dev nD) (t : Fin cfg0.N) : sProp 𝕄 :=
  iprop((stages m 0 c).Φ t.succ ∗ (stages m 0 c).owesAt () t.succ
    ∗ owns (c : Thread nD τ) (st0_0 t) fullShare ((stages m 0 c).after 0 t)
    ∗ owns (c : Thread nD τ) (st0_1 t) fullShare ((stages m 0 c).after 1 t)
    ∗ owns (c : Thread nD τ) (st0_2 t) fullShare ((stages m 0 c).after 2 t)
    ∗ owns (c : Thread nD τ) (st0_3 t) fullShare ((stages m 0 c).after 3 t)
    ∗ owns (c : Thread nD τ) (st0_4 t) fullShare ((stages m 0 c).after 4 t)
    ∗ owns (c : Thread nD τ) (st0_5 t) fullShare ((stages m 0 c).after 5 t))

/-- The body at any point: the inputs' buffers hold their blocks, so the body's triple applies; the invariant and what
    the core owes pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [before_rows, before_W1, before_b1, before_W2, before_b2]
  rw [show (stages m 0 c).Φ t.succ = (stages m 0 c).Φ t.castSucc from rfl,
    show (stages m 0 c).owesAt () t.succ = (stages m 0 c).owesAt () t.castSucc from rfl,
    after_rows, after_W1, after_b1, after_W2, after_b2, after_out]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _
    (tile m c 0 t) (tile m c 1 t) (tile m c 2 t) (tile m c 3 t) (tile m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (stages (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, with every array of the region
    at what the proof data computes and every other unscoped buffer as the region found it. -/
theorem run_region : θ_run defs (onTc (τ := τ) (main (F := F))) (s₀ m ρ) (Pipeline.FramePost cfgs (stages m) 0 (entry m)) :=
  Pipeline.θ_run_frame cfgs (stages m) (0 : Fin 1) launch0 defs₀ Variants.none m ρ main
    (hbody := fun c => (body_obligation m c).loose) (hshare := fun c => (stages m 0 c).share_full fun _ => rfl)
    (howed := fun _ _ => rfl) (V := entry m) (hmain := main_to_region m Variants.none) (hA := stages_A m) (hΦ := fun _ _ => rfl)

/-- The argument arrays end as launched: the node features, the edge list and the edge weights bypass the region (no
    window stages them), the two weight matrices and the two bias rows are input windows, which the region only reads;
    and the host operations before the region write none of the seven. -/
theorem args_kept (r : PUnit × MemSt nD τ sig (Elt F)) (h : Pipeline.FramePost cfgs (stages m) 0 (entry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (entry_x m c),
   ((h c).2 main_arg1 (Pipeline.mem_restRefs_of main_arg1 (by decide) (by decide))).trans (entry_edges m c),
   ((h c).2 main_arg2 (Pipeline.mem_restRefs_of main_arg2 (by decide) (by decide))).trans (entry_weights m c),
   ((h c).1 1).trans (((stages m 0 c).arrAt_in 1 rfl _).trans ((stages_A m c 1).trans (entry_W1 m c))),
   ((h c).1 2).trans (((stages m 0 c).arrAt_in 2 rfl _).trans ((stages_A m c 2).trans (entry_b1 m c))),
   ((h c).1 3).trans (((stages m 0 c).arrAt_in 3 rfl _).trans ((stages_A m c 3).trans (entry_W2 m c))),
   ((h c).1 4).trans (((stages m 0 c).arrAt_in 4 rfl _).trans ((stages_A m c 4).trans (entry_b2 m c)))⟩

/-- The frame of Kernel, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m r h c) (run_region m ρ)

end Cert.Kernel.Region

end
-- ==== Proof.IdealEntry.lean ====
/-
  What the one pallas_call of KernelIdeal finds in HBM. Before the region @main runs thirty-five host
  operations: the two rows of the edge list are sliced out, negative entries wrapped by the node
  count, the node features gathered along each row and scaled by the edge weight, the scaled
  messages summed into their target nodes (twice, once per direction), and the two sums laid beside
  the node features as one [100000, 96] matrix. Every one of these writes a buffer of its own, so the
  seven argument arrays reach the region exactly as launched.
-/
import proofs.«135378_j26182120636656_1_alg».proof.Proof.Gen.KernelIdeal.Launch
import Idealize.ShloMosaic.Lib.Pipeline.Frame
import Idealize.ShloMosaic.Lib.StableHlo.Run

noncomputable section

namespace Cert.KernelIdeal.Region

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- Core `c`'s buffers when the region is entered: the launch memory after the host operations. -/
abbrev entry (c : Dev nD) (b : Ref sig .tc) : Buf (Elt F) ((c : Thread nD τ).loc b) :=
  StableHlo.after hostOps0 (fun b => m (c, b)) b

/-- No host operation allocates: each writes a buffer the signature already has. -/
theorem glue_fresh : (hostOps0 : List (HloOp τ sig (Elt F))).Forall fun op => op.fresh = ∅ := by
  simp only [List.Forall]; repeat' constructor

/-- @main is the host operations and then the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub glue_fresh main_chain

/-- A reference none of the thirty-five operations writes is found as launched: each operation's one result
    buffer is told apart from it as a reference. -/
local macro "glue_keeps" : tactic => `(tactic| (
  refine StableHlo.after_of_forall_not_mem _ _ (List.forall_iff_forall_mem.mp ?_)
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

/-- The node features reach the region as launched. -/
theorem entry_x (c : Dev nD) : entry m c main_arg0 = m ((c : Thread nD τ).loc main_arg0) := by glue_keeps
/-- The edge list reaches the region as launched. -/
theorem entry_edges (c : Dev nD) : entry m c main_arg1 = m ((c : Thread nD τ).loc main_arg1) := by glue_keeps
/-- The edge weights reach the region as launched. -/
theorem entry_weights (c : Dev nD) : entry m c main_arg2 = m ((c : Thread nD τ).loc main_arg2) := by glue_keeps
/-- The first layer's matrix reaches the region as launched. -/
theorem entry_W1 (c : Dev nD) : entry m c main_arg3 = m ((c : Thread nD τ).loc main_arg3) := by glue_keeps
/-- The first layer's bias reaches the region as launched. -/
theorem entry_b1 (c : Dev nD) : entry m c main_arg4 = m ((c : Thread nD τ).loc main_arg4) := by glue_keeps
/-- The second layer's matrix reaches the region as launched. -/
theorem entry_W2 (c : Dev nD) : entry m c main_arg5 = m ((c : Thread nD τ).loc main_arg5) := by glue_keeps
/-- The second layer's bias reaches the region as launched. -/
theorem entry_b2 (c : Dev nD) : entry m c main_arg6 = m ((c : Thread nD τ).loc main_arg6) := by glue_keeps

end Cert.KernelIdeal.Region

end
-- ==== Proof.IdealBody.lean ====
/-
  The kernel body on one tile of nodes. It loads the tile of the joined matrix (5000 rows of 96
  features), the two weight matrices and the two bias rows, computes the two-layer perceptron
  row by row — first layer product plus bias through tanh, second layer product plus bias through
  tanh — and stores the 5000 × 64 result over the WHOLE output block. It also loads the output
  block first, a value it never uses, so the block may hold anything when the body starts.
  What the body leaves in the output block is therefore one pure function of the five loaded
  blocks: the skeleton's payload.
-/
import proofs.«135378_j26182120636656_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The offsets of every access of the body are zero: on two axes, -/
theorem zeros2 : (![0, 0] : Fin 2 → Nat) = fun _ => 0 := by
  funext a; fin_cases a <;> rfl
/-- and on one. -/
theorem zeros1 : (![0] : Fin 1 → Nat) = fun _ => 0 := by
  funext a; fin_cases a; rfl

/-- The one store's rectangle is the whole output block. -/
abbrev outRect : Rect S5000x64 := Rect.unit (s := S5000x64) ![0, 0] S5000x64.size inb_S5000x64_S5000x64_0_0

set_option maxHeartbeats 1000000 in
/-- The body on whole staging buffers — the five inputs' at contents `x`, `w1`, `b1`, `w2`, `b2`, the output's at
    anything — runs to its end holding the inputs' as they were and the output's at the perceptron of the five. -/
theorem body_triple (c : Dev nD) (E : Set ℕ) (i : grid0.Coords)
    (arg1 : Memref sig .tc .vmem S5000x96 .f32) (harg1 : arg1.IsWhole) (arg2 : Memref sig .tc .vmem S96x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S5000x64 .f32) (harg6 : arg6.IsWhole)
    (x : Vec F S5000x96 .f32) (w1 : Vec F S96x64 .f32) (b1 : Vec F S64 .f32) (w2 : Vec F S64x64 .f32) (b2 : Vec F S64 .f32)
    (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (k0_pay1 x w1 b1 w2 b2)) -∗ K ⟨⟩))
      ⊢ wp frame (wpE (defs₀ (F := F)) Variants.none c none) E
          (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero zeros2 inb_S5000x64_S5000x64_0_0 y⟩),
    View.canon_unit_zero zeros2]
  simp only [View.readAt_eq_ld, View.ld_unit_zero (S := S5000x96) zeros2, View.ld_unit_zero (S := S96x64) zeros2,
    View.ld_unit_zero (S := S64x64) zeros2, View.ld_unit_zero (S := S64) zeros1]

end Cert.KernelIdeal.Region

end
-- ==== Proof.IdealRegion.lean ====
/-
  The one region of KernelIdeal, launched. The grid has twenty points; point `t` is handed rows
  5000·t … 5000·t + 4999 of the joined matrix and the same whole weight matrices and bias rows
  every time, and writes back rows 5000·t … of the result. The proof data says what each staging
  buffer holds after the body: an input's still its block, the output's the perceptron of the five
  input blocks. With the body's triple this is the body obligation at every point, the launch
  theorem then runs @main to its end, and the argument arrays — three of them bypass the region,
  four are read-only windows of it — end as launched.
-/
import proofs.«135378_j26182120636656_1_alg».proof.Proof.Gen.KernelIdeal.Points
import proofs.«135378_j26182120636656_1_alg».proof.Proof.IdealEntry
import proofs.«135378_j26182120636656_1_alg».proof.Proof.IdealBody

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the proof data -/

/-- Window `w`'s block at point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The proof data on core `c`: the arrays as the region finds them; after the body at point `t` each input's buffer
    still at its block and the output's at the perceptron of the five blocks; the invariant the scoped rest and the
    generator register, which the body never touches; nothing owed, full shares. -/
def stages (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => k0_pay1 (tile m c 0 t) (tile m c 1 t) (tile m c 2 t) (tile m c 3 t) (tile m c 4 t)
  Φ _ := Pipeline.ΦA spec0 c
  q _ := fullShare
  owed _ := 0

/-- The proof data's arrays are the region-entry contents. -/
theorem stages_A (c : Dev nD) (w : Fin cfg0.W) : (stages m 0 c).A w = entry m c (Pipeline.arrRef spec0 w) := by
  dsimp only [stages]

/-- What the body leaves, window by window. -/
theorem after_rows (c : Dev nD) (t : Fin cfg0.N) : (stages m 0 c).after 0 t = tile m c 0 t := by dsimp only [stages]
theorem after_W1 (c : Dev nD) (t : Fin cfg0.N) : (stages m 0 c).after 1 t = tile m c 1 t := by dsimp only [stages]
theorem after_b1 (c : Dev nD) (t : Fin cfg0.N) : (stages m 0 c).after 2 t = tile m c 2 t := by dsimp only [stages]
theorem after_W2 (c : Dev nD) (t : Fin cfg0.N) : (stages m 0 c).after 3 t = tile m c 3 t := by dsimp only [stages]
theorem after_b2 (c : Dev nD) (t : Fin cfg0.N) : (stages m 0 c).after 4 t = tile m c 4 t := by dsimp only [stages]
theorem after_out (c : Dev nD) (t : Fin cfg0.N) :
    (stages m 0 c).after 5 t = k0_pay1 (tile m c 0 t) (tile m c 1 t) (tile m c 2 t) (tile m c 3 t) (tile m c 4 t) := by
  dsimp only [stages]

/-! ## What the body is handed

An input's current staging buffer holds its block at every point, whether the pipeline fetched it there or not:
the row tile is fetched at every point; the weights and biases are fetched once, their block index never moves,
and the body leaves them in place. -/

theorem before_rows (c : Dev nD) (t : Fin cfg0.N) (d) : (stages m 0 c).before 0 t d = tile m c 0 t :=
  ((stages m 0 c).before_in_eq_fetched 0 rfl (fun _ => rfl) (fun _ _ _ => rfl)
      (fun t => by rw [after_rows]; unfold Dat.blockOf tile; rw [stages_A]; try rfl) t d).trans
    (by unfold Dat.fetched Dat.blockOf tile; rw [stages_A]; try rfl)
theorem before_W1 (c : Dev nD) (t : Fin cfg0.N) (d) : (stages m 0 c).before 1 t d = tile m c 1 t :=
  ((stages m 0 c).before_in_eq_fetched 1 rfl (fun _ => rfl) (fun _ _ _ => rfl)
      (fun t => by rw [after_W1]; unfold Dat.blockOf tile; rw [stages_A]; try rfl) t d).trans
    (by unfold Dat.fetched Dat.blockOf tile; rw [stages_A]; try rfl)
theorem before_b1 (c : Dev nD) (t : Fin cfg0.N) (d) : (stages m 0 c).before 2 t d = tile m c 2 t :=
  ((stages m 0 c).before_in_eq_fetched 2 rfl (fun _ => rfl) (fun _ _ _ => rfl)
      (fun t => by rw [after_b1]; unfold Dat.blockOf tile; rw [stages_A]; try rfl) t d).trans
    (by unfold Dat.fetched Dat.blockOf tile; rw [stages_A]; try rfl)
theorem before_W2 (c : Dev nD) (t : Fin cfg0.N) (d) : (stages m 0 c).before 3 t d = tile m c 3 t :=
  ((stages m 0 c).before_in_eq_fetched 3 rfl (fun _ => rfl) (fun _ _ _ => rfl)
      (fun t => by rw [after_W2]; unfold Dat.blockOf tile; rw [stages_A]; try rfl) t d).trans
    (by unfold Dat.fetched Dat.blockOf tile; rw [stages_A]; try rfl)
theorem before_b2 (c : Dev nD) (t : Fin cfg0.N) (d) : (stages m 0 c).before 4 t d = tile m c 4 t :=
  ((stages m 0 c).before_in_eq_fetched 4 rfl (fun _ => rfl) (fun _ _ _ => rfl)
      (fun t => by rw [after_b2]; unfold Dat.blockOf tile; rw [stages_A]; try rfl) t d).trans
    (by unfold Dat.fetched Dat.blockOf tile; rw [stages_A]; try rfl)

/-! ## The body obligation -/

/-- What the body is called with at point `t`, the windows one by one, -/
def handed (c : Dev nD) (t : Fin cfg0.N) : sProp 𝕄 :=
  iprop((stages m 0 c).Φ t.castSucc ∗ (stages m 0 c).owesAt () t.castSucc
    ∗ (∃ d, owns (c : Thread nD τ) (st0_0 t) fullShare ((stages m 0 c).before 0 t d))
    ∗ (∃ d, owns (c : Thread nD τ) (st0_1 t) fullShare ((stages m 0 c).before 1 t d))
    ∗ (∃ d, owns (c : Thread nD τ) (st0_2 t) fullShare ((stages m 0 c).before 2 t d))
    ∗ (∃ d, owns (c : Thread nD τ) (st0_3 t) fullShare ((stages m 0 c).before 3 t d))
    ∗ (∃ d, owns (c : Thread nD τ) (st0_4 t) fullShare ((stages m 0 c).before 4 t d))
    ∗ (∃ d, owns (c : Thread nD τ) (st0_5 t) fullShare ((stages m 0 c).before 5 t d)))

/-- and what it returns. -/
def returned (c : Dev nD) (t : Fin cfg0.N) : sProp 𝕄 :=
  iprop((stages m 0 c).Φ t.succ ∗ (stages m 0 c).owesAt () t.succ
    ∗ owns (c : Thread nD τ) (st0_0 t) fullShare ((stages m 0 c).after 0 t)
    ∗ owns (c : Thread nD τ) (st0_1 t) fullShare ((stages m 0 c).after 1 t)
    ∗ owns (c : Thread nD τ) (st0_2 t) fullShare ((stages m 0 c).after 2 t)
    ∗ owns (c : Thread nD τ) (st0_3 t) fullShare ((stages m 0 c).after 3 t)
    ∗ owns (c : Thread nD τ) (st0_4 t) fullShare ((stages m 0 c).after 4 t)
    ∗ owns (c : Thread nD τ) (st0_5 t) fullShare ((stages m 0 c).after 5 t))

/-- The body at any point: the inputs' buffers hold their blocks, so the body's triple applies; the invariant and what
    the core owes pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [before_rows, before_W1, before_b1, before_W2, before_b2]
  rw [show (stages m 0 c).Φ t.succ = (stages m 0 c).Φ t.castSucc from rfl,
    show (stages m 0 c).owesAt () t.succ = (stages m 0 c).owesAt () t.castSucc from rfl,
    after_rows, after_W1, after_b1, after_W2, after_b2, after_out]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _
    (tile m c 0 t) (tile m c 1 t) (tile m c 2 t) (tile m c 3 t) (tile m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (stages (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, with every array of the region
    at what the proof data computes and every other unscoped buffer as the region found it. -/
theorem run_region : θ_run defs (onTc (τ := τ) (main (F := F))) (s₀ m ρ) (Pipeline.FramePost cfgs (stages m) 0 (entry m)) :=
  Pipeline.θ_run_frame cfgs (stages m) (0 : Fin 1) launch0 defs₀ Variants.none m ρ main
    (hbody := fun c => (body_obligation m c).loose) (hshare := fun c => (stages m 0 c).share_full fun _ => rfl)
    (howed := fun _ _ => rfl) (V := entry m) (hmain := main_to_region m Variants.none) (hA := stages_A m) (hΦ := fun _ _ => rfl)

/-- The argument arrays end as launched: the node features, the edge list and the edge weights bypass the region (no
    window stages them), the two weight matrices and the two bias rows are input windows, which the region only reads;
    and the host operations before the region write none of the seven. -/
theorem args_kept (r : PUnit × MemSt nD τ sig (Elt F)) (h : Pipeline.FramePost cfgs (stages m) 0 (entry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (entry_x m c),
   ((h c).2 main_arg1 (Pipeline.mem_restRefs_of main_arg1 (by decide) (by decide))).trans (entry_edges m c),
   ((h c).2 main_arg2 (Pipeline.mem_restRefs_of main_arg2 (by decide) (by decide))).trans (entry_weights m c),
   ((h c).1 1).trans (((stages m 0 c).arrAt_in 1 rfl _).trans ((stages_A m c 1).trans (entry_W1 m c))),
   ((h c).1 2).trans (((stages m 0 c).arrAt_in 2 rfl _).trans ((stages_A m c 2).trans (entry_b1 m c))),
   ((h c).1 3).trans (((stages m 0 c).arrAt_in 3 rfl _).trans ((stages_A m c 3).trans (entry_W2 m c))),
   ((h c).1 4).trans (((stages m 0 c).arrAt_in 4 rfl _).trans ((stages_A m c 4).trans (entry_b2 m c)))⟩

/-- The frame of KernelIdeal, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m r h c) (run_region m ρ)

end Cert.KernelIdeal.Region

end
-- ==== Proof.Mlp.lean ====
/-
  The two-layer perceptron of the node network, on ONE node. A node's input is its row of 96
  features (the messages summed over its incoming edges, those over its outgoing edges, and its
  own 32 features, side by side). The first layer takes the row to 64 hidden units,
  h k = tanh (Σ_q row q · W1 (q, k) + b1 k), the second to the node's 64 outputs,
  out j = tanh (Σ_k h k · W2 (k, j) + b2 j). Everything is over the extended reals, where tanh
  sends the infinities to ±1; no law beyond the definitions is used, so nothing here needs the
  inputs to be finite. A matrix of nodes is mapped row by row.
-/
import Idealize.ShloMosaic.Lib.ValueIdx
import Idealize.ShloMosaic.PureOps.Ideal

noncomputable section

namespace Cert.Mlp

open Idealize.ShloMosaic Idealize.ShloMosaic.ValueIdx

/-- The hidden unit `k` of a node with feature row `row`. -/
def hidden (row : Fin 96 → EReal) (W1 : (⟨2, ![96, 64]⟩ : Shape).Idx → EReal) (b1 : (⟨1, ![64]⟩ : Shape).Idx → EReal)
    (k : Fin 64) : EReal :=
  Ideal.tanh ((∑ q : Fin 96, row q * W1 (ix2 q k)) + b1 (ix1 k))

/-- The output `j` of a node with feature row `row`. -/
def out (row : Fin 96 → EReal) (W1 : (⟨2, ![96, 64]⟩ : Shape).Idx → EReal) (b1 : (⟨1, ![64]⟩ : Shape).Idx → EReal)
    (W2 : (⟨2, ![64, 64]⟩ : Shape).Idx → EReal) (b2 : (⟨1, ![64]⟩ : Shape).Idx → EReal) (j : Fin 64) : EReal :=
  Ideal.tanh ((∑ k : Fin 64, hidden row W1 b1 k * W2 (ix2 k j)) + b2 (ix1 j))

/-- Row `r` of a matrix of `n` nodes. -/
def rowOf {n : Nat} (M : (⟨2, ![n, 96]⟩ : Shape).Idx → EReal) (r : Fin n) : Fin 96 → EReal := fun q => M (ix2 r q)

/-- The network over all 100000 nodes: entry (r, j) is output `j` of node `r`. -/
def net (M : (⟨2, ![100000, 96]⟩ : Shape).Idx → EReal) (W1 : (⟨2, ![96, 64]⟩ : Shape).Idx → EReal)
    (b1 : (⟨1, ![64]⟩ : Shape).Idx → EReal) (W2 : (⟨2, ![64, 64]⟩ : Shape).Idx → EReal) (b2 : (⟨1, ![64]⟩ : Shape).Idx → EReal) :
    (⟨2, ![100000, 64]⟩ : Shape).Idx → EReal :=
  fun i => out (rowOf M ⟨(i 0).val, (i 0).isLt⟩) W1 b1 W2 b2 ⟨(i 1).val, (i 1).isLt⟩

/-- The network at a node and an output given as coordinates. -/
theorem net_apply (M : (⟨2, ![100000, 96]⟩ : Shape).Idx → EReal) (W1 : (⟨2, ![96, 64]⟩ : Shape).Idx → EReal)
    (b1 : (⟨1, ![64]⟩ : Shape).Idx → EReal) (W2 : (⟨2, ![64, 64]⟩ : Shape).Idx → EReal) (b2 : (⟨1, ![64]⟩ : Shape).Idx → EReal)
    (r : Fin 100000) (j : Fin 64) : net M W1 b1 W2 b2 (ix2 r j) = out (rowOf M r) W1 b1 W2 b2 j := rfl

end Cert.Mlp

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.TileValue.lean ====
/-
  What the kernel body computes on a tile, index by index, over the extended reals. Rounding a
  block to bf16 on the way into the matrix unit is the identity there, the matrix unit's product
  into a zero accumulator is the plain sum over the contracted index, and a bias row cast to
  [1, 64] and spread down the rows is the bias at the column. So the payload at row `p`, column
  `j` of the tile is the perceptron's output `j` on row `p` of the loaded node tile.
-/
import proofs.«135378_j26182120636656_1_alg».proof.Proof.Gen.KernelIdeal.Skeleton
import proofs.«135378_j26182120636656_1_alg».proof.Proof.Mlp
import proofs.«135378_j26182120636656_1_alg».proof.Proof.LibDense

noncomputable section

namespace Cert.KernelIdeal.Tile

open Idealize.ShloMosaic Idealize.ShloMosaic.ValueIdx Idealize.SL.Sem
open Cert.KernelIdeal Cert.KernelIdeal.Gen

/-- A bias vector cast to a one-row matrix, read at (0, j): the bias at j. -/
theorem bias_row (b : Vec Ideal S64 .f32) (j : Fin 64) :
    shapeCast S1x64 b shapeCasts_S64_S1x64 (ix2 (0 : Fin 1) j) = b (ix1 j) := by
  refine (shapeCast_addUnit_apply ![64] b shapeCasts_S64_S1x64 (ix2 (0 : Fin 1) j)).trans ?_
  refine congrArg b (funext fun a => ?_)
  match a with
  | ⟨0, _⟩ => rfl

/-- The first layer on the tile, read at row `p`, unit `k`: the hidden unit of that row. The rounding to bf16 before
    the second product is the identity over the extended reals. -/
theorem hidden_at (x : Vec Ideal S5000x96 .f32) (w1 : Vec Ideal S96x64 .f32) (b1 : Vec Ideal S64 .f32) (p : Fin 5000) (k : Fin 64) :
    (truncf .bf16 (tanh (addf (matmul dot_S5000x96_S96x64_S5000x64_1_0_0_1_n_n none
          (truncf .bf16 (shapeCast S5000x96 x shapeCasts_S5000x96_S5000x96) bitsLt_bf16_f32) (truncf .bf16 w1 bitsLt_bf16_f32)
          (constant S5000x64 .f32 0x00000000#32))
        (broadcastTo S5000x64 (shapeCast S1x64 b1 shapeCasts_S64_S1x64) broadcasts_S1x64_S5000x64))) bitsLt_bf16_f32
      : FVec Ideal S5000x64 .bf16) (ix2 p k)
      = Cert.Mlp.hidden (fun q => x (ix2 p q)) w1 b1 k := by
  unfold Cert.Mlp.hidden
  refine congrArg Ideal.tanh ?_
  refine (Cert.LibDense.dense_apply dot_S5000x96_S96x64_S5000x64_1_0_0_1_n_n_wf _ _ _ broadcasts_S1x64_S5000x64 p k).trans ?_
  refine congrArg₂ (· + ·) (Finset.sum_congr rfl fun q _ => ?_) (bias_row b1 k)
  rw [shapeCast_self]
  rfl

/-- The payload at row `p`, column `j` of the tile: output `j` of the perceptron on row `p`. -/
theorem payload_at (x : Vec Ideal S5000x96 .f32) (w1 : Vec Ideal S96x64 .f32) (b1 : Vec Ideal S64 .f32)
    (w2 : Vec Ideal S64x64 .f32) (b2 : Vec Ideal S64 .f32) (p : Fin 5000) (j : Fin 64) :
    k0_pay1 (F := Ideal) x w1 b1 w2 b2 (ix2 p j) = Cert.Mlp.out (fun q => x (ix2 p q)) w1 b1 w2 b2 j := by
  unfold k0_pay1 Cert.Mlp.out
  refine congrArg Ideal.tanh ?_
  refine (Cert.LibDense.dense_apply dot_S5000x64_S64x64_S5000x64_1_0_0_1_n_n_wf _ _ _ broadcasts_S1x64_S5000x64 p j).trans ?_
  refine congrArg₂ (· + ·) (Finset.sum_congr rfl fun k _ => congrArg₂ (· * ·) (hidden_at x w1 b1 p k) rfl) (bias_row b2 j)

end Cert.KernelIdeal.Tile

end
-- ==== Proof.KernelValue.lean ====
/-
  The result array of the idealized kernel, as one function of what the region finds. Grid point
  `t` is handed rows 5000·t … 5000·t + 4999 of the joined matrix and the whole of each weight
  matrix and bias row, and writes back the same rows of the result; the perceptron acts on each
  node's row by itself, so what point `t` writes back is rows 5000·t … of the network applied to
  the whole joined matrix. The twenty row blocks tile the 100000 rows, hence the array ends at the
  network of the joined matrix, everywhere.
-/
import proofs.«135378_j26182120636656_1_alg».proof.Proof.IdealRegion
import proofs.«135378_j26182120636656_1_alg».proof.Proof.TileValue

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Region

variable (m : (ℓ : Loc nD τ sig) → Buf (Elt Ideal) ℓ) (ρ : Dev nD → PrngReg)

/-- The network of the arrays the region finds: the joined matrix and the four parameter arrays. -/
abbrev result (c : Dev nD) : S100000x64.Idx → EReal :=
  Cert.Mlp.net (entry m c main_v28) (entry m c main_arg3) (entry m c main_arg4) (entry m c main_arg5) (entry m c main_arg6)

/-- The printed index maps over the twenty points: the row tile and the output tile sit at block row `t`, block column
    zero; the parameter windows at block zero on every axis. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Every block row is some point's. -/
theorem index_onto : ∀ q : Fin 20, ∃ t : Fin cfg0.N, win0_5.index t (0 : Fin 2) = q.val :=
  (by decide +kernel : ∀ q : Fin 20, ∃ t : Fin grid0.N, win0_5.index t (0 : Fin 2) = q.val)

/-! ## The blocks read at coordinates -/

/-- The row tile at point `t`, read at (p, q): row 5000·t + p of the joined matrix. -/
theorem rows_at (c : Dev nD) (t : Fin cfg0.N) (p : Fin 5000) (q : Fin 96) (r : Fin 100000) (hr : r.val = t.val * 5000 + p.val) :
    tile m c 0 t (ix2 p q) = entry m c main_v28 (ix2 r q) := by
  show entry m c main_v28 (((cfg0.win 0).blk t).view.emb (ix2 p q)) = entry m c main_v28 (ix2 r q)
  refine congrArg (entry m c main_v28) (funext fun a => Fin.ext ?_)
  obtain ⟨e0, e1, -⟩ := index_facts t
  match a with
  | ⟨0, _⟩ => show win0_0.index t (0 : Fin 2) * 5000 + 1 * p.val = r.val; omega
  | ⟨1, _⟩ => show win0_0.index t (1 : Fin 2) * 96 + 1 * q.val = q.val; omega

/-- The first weight matrix's block is the whole matrix, at every point. -/
theorem W1_at (c : Dev nD) (t : Fin cfg0.N) : (tile m c 1 t : S96x64.Idx → EReal) = entry m c main_arg3 := by
  funext y
  show entry m c main_arg3 (((cfg0.win 1).blk t).view.emb y) = entry m c main_arg3 y
  refine congrArg (entry m c main_arg3) (funext fun a => Fin.ext ?_)
  obtain ⟨-, -, e0, e1, -⟩ := index_facts t
  match a with
  | ⟨0, _⟩ => show win0_1.index t (0 : Fin 2) * 96 + 1 * (y 0).val = (y 0).val; omega
  | ⟨1, _⟩ => show win0_1.index t (1 : Fin 2) * 64 + 1 * (y 1).val = (y 1).val; omega

/-- The first bias row's block is the whole row. -/
theorem b1_at (c : Dev nD) (t : Fin cfg0.N) : (tile m c 2 t : S64.Idx → EReal) = entry m c main_arg4 := by
  funext y
  show entry m c main_arg4 (((cfg0.win 2).blk t).view.emb y) = entry m c main_arg4 y
  refine congrArg (entry m c main_arg4) (funext fun a => Fin.ext ?_)
  obtain ⟨-, -, -, -, e0, -⟩ := index_facts t
  match a with
  | ⟨0, _⟩ => show win0_2.index t (0 : Fin 1) * 64 + 1 * (y 0).val = (y 0).val; omega

/-- The second weight matrix's block is the whole matrix. -/
theorem W2_at (c : Dev nD) (t : Fin cfg0.N) : (tile m c 3 t : S64x64.Idx → EReal) = entry m c main_arg5 := by
  funext y
  show entry m c main_arg5 (((cfg0.win 3).blk t).view.emb y) = entry m c main_arg5 y
  refine congrArg (entry m c main_arg5) (funext fun a => Fin.ext ?_)
  obtain ⟨-, -, -, -, -, e0, e1, -⟩ := index_facts t
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The second bias row's block is the whole row. -/
theorem b2_at (c : Dev nD) (t : Fin cfg0.N) : (tile m c 4 t : S64.Idx → EReal) = entry m c main_arg6 := by
  funext y
  show entry m c main_arg6 (((cfg0.win 4).blk t).view.emb y) = entry m c main_arg6 y
  refine congrArg (entry m c main_arg6) (funext fun a => Fin.ext ?_)
  obtain ⟨-, -, -, -, -, -, -, e0, -⟩ := index_facts t
  match a with
  | ⟨0, _⟩ => show win0_4.index t (0 : Fin 1) * 64 + 1 * (y 0).val = (y 0).val; omega

/-! ## What a point writes back, and the whole array -/

/-- The perceptron on a tile whose blocks are those of point `t`: at (p, j) it is the network at row 5000·t + p. -/
theorem tile_is_net (c : Dev nD) (t : Fin cfg0.N) (x : Vec Ideal S5000x96 .f32) (w1 : Vec Ideal S96x64 .f32) (b1 : Vec Ideal S64 .f32)
    (w2 : Vec Ideal S64x64 .f32) (b2 : Vec Ideal S64 .f32)
    (hx : ∀ (p : Fin 5000) (q : Fin 96) (r : Fin 100000), r.val = t.val * 5000 + p.val → x (ix2 p q) = entry m c main_v28 (ix2 r q))
    (hw1 : w1 = entry m c main_arg3) (hb1 : b1 = entry m c main_arg4) (hw2 : w2 = entry m c main_arg5) (hb2 : b2 = entry m c main_arg6)
    (p : Fin 5000) (j : Fin 64) (r : Fin 100000) (hr : r.val = t.val * 5000 + p.val) :
    k0_pay1 (F := Ideal) x w1 b1 w2 b2 (ix2 p j) = result m c (ix2 r j) := by
  refine (Cert.KernelIdeal.Tile.payload_at x w1 b1 w2 b2 p j).trans ?_
  subst hw1 hb1 hw2 hb2
  refine Eq.trans ?_ (Cert.Mlp.net_apply (entry m c main_v28) _ _ _ _ r j).symm
  exact congrArg (fun row => Cert.Mlp.out row _ _ _ _ j) (funext fun q => hx p q r hr)

/-- A tile that agrees, row by row, with rows 5000·t … of an array is block `t` of that array, as point `t`'s
    write-back reads it: the block's local row `p` is the array's row 5000·t + p, its columns the array's. -/
theorem tile_is_block (t : Fin cfg0.N) (X : Vec Ideal S5000x64 .f32) (G : S100000x64.Idx → EReal)
    (h : ∀ (p : Fin 5000) (j : Fin 64) (r : Fin 100000), r.val = t.val * 5000 + p.val → X (ix2 p j) = G (ix2 r j)) :
    (cfg0.win 5).cut (grid0.coords t) X = ((cfg0.win 5).blk t).view.read (Elt Ideal) G := by
  funext y
  obtain ⟨p, j, rfl⟩ : ∃ (p : Fin 5000) (j : Fin 64), y = ix2 p j := ⟨y 0, y 1, eq_ix2 y⟩
  obtain ⟨-, -, -, -, -, -, -, -, e0, e1⟩ := index_facts t
  have ht : t.val < 20 := Nat.lt_of_lt_of_eq t.isLt N_0
  have hp : p.val < 5000 := p.isLt
  obtain ⟨r, hr⟩ : ∃ r : Fin 100000, r.val = t.val * 5000 + p.val := ⟨⟨t.val * 5000 + p.val, by omega⟩, rfl⟩
  show X (ix2 p j) = G (((cfg0.win 5).blk t).view.emb (ix2 p j))
  have hemb : ((cfg0.win 5).blk t).view.emb (ix2 p j) = ix2 r j := by
    funext a; apply Fin.ext
    match a with
    | ⟨0, _⟩ => show win0_5.index t (0 : Fin 2) * 5000 + 1 * p.val = r.val; omega
    | ⟨1, _⟩ => show win0_5.index t (1 : Fin 2) * 64 + 1 * j.val = j.val; omega
  rw [hemb]
  exact h p j r hr

/-- What point `t` writes back is block `t` of the network of the joined matrix. -/
theorem flushed_eq (c : Dev nD) (t : Fin cfg0.N) :
    (stages m 0 c).flushed 5 t = ((cfg0.win 5).blk t).view.read (Elt Ideal) (result m c) := by
  show (cfg0.win 5).cut (grid0.coords t) ((stages m 0 c).after 5 t) = _
  rw [after_out]
  exact tile_is_block t _ _ (fun p j r hr =>
    tile_is_net m c t _ _ _ _ _ (fun p q r hr => rows_at m c t p q r hr) (W1_at m c t) (b1_at m c t) (W2_at m c t) (b2_at m c t)
      p j r hr)

/-- An index of the result array is in point `t`'s block iff each coordinate is in the block's range. -/
theorem mem_block (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v29).slice (win0_5.rect t)).set ↔ _
  rw [View.set_slice_whole, Rect.mem_set_unit]
  exact Iff.rfl

/-- The twenty row blocks cover the array: row `i` lies in the block of point `i / 5000`. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := index_onto ⟨(i 0).val / 5000, by omega⟩
  have ht' : win0_5.index t (0 : Fin 2) = (i 0).val / 5000 := ht
  obtain ⟨-, -, -, -, -, -, -, -, -, e1⟩ := index_facts t
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The result array after the run: the network of the joined matrix. -/
theorem final (c : Dev nD) : (stages m 0 c).arrAt 5 cfg0.N = result m c :=
  (stages m 0 c).arrAt_eq_of_cover 5 (result m c) (fun t _ => flushed_eq m c t) covered

/-- The run of the idealized kernel, read: the result array at the network of the joined matrix the host operations
    built and of the parameter arrays as launched; the arguments unchanged. -/
theorem run : θ_run defs (onTc (τ := τ) (main (F := Ideal))) ⟨m, fun _ => 0, ρ⟩ fun r => ∀ c : Dev nD,
      r.2.mem ((c.tc : Thread nD τ).loc main_v29)
          = Cert.Mlp.net (entry m c main_v28) (m ((c.tc : Thread nD τ).loc main_arg3)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(((h c).1 5).trans (final m c)).trans (by
        show Cert.Mlp.net _ _ _ _ _ = _
        rw [entry_W1 m c, entry_b1 m c, entry_W2 m c, entry_b2 m c]), args_kept m r h c⟩)
    (run_region m ρ)

end Cert.KernelIdeal.Whole

end
-- ==== Proof.Joined.lean ====
/-
  The joined matrix. Both programs build the [100000, 96] input of the perceptron with the same
  thirty-five host operations of the node features, the edge list and the edge weights: gather the
  features along one row of the edge list, scale by the edge weight, sum into the nodes the other row
  names — once in each direction — and lay the two sums beside the features. What the kernel's
  region finds in that buffer is therefore, operation by operation, the reference's own stage for
  it; nothing about what a gather or a scatter-add computes is needed.
-/
import proofs.«135378_j26182120636656_1_alg».proof.Proof.IdealEntry
import proofs.«135378_j26182120636656_1_alg».proof.Proof.Gen.ReferenceIdeal.Read

noncomputable section

namespace Cert.KernelIdeal.Joined

open Idealize.ShloMosaic Idealize.ShloMosaic.TcCoe Idealize.SL.Sem Idealize.ShloMosaic.StableHlo
open Cert.KernelIdeal Cert.KernelIdeal.Gen Cert.KernelIdeal.Region

variable (m : (ℓ : Loc nD τ sig) → Buf (Elt Ideal) ℓ)

/-- What the region finds in the joined matrix's buffer: the reference's stage for it, of the three arrays as launched. -/
theorem joined_eq (c : Dev nD) :
    (entry m c main_v28 : S100000x96.Idx → EReal)
      = Cert.ReferenceIdeal.Read.val_main_v28 (F := Ideal) (m ((c.tc : Thread nD τ).loc main_arg0))
          (m ((c.tc : Thread nD τ).loc main_arg1)) (m ((c.tc : Thread nD τ).loc main_arg2)) := by
  dsimp only [entry, hostOps0]
  after_results_simp
  rfl

end Cert.KernelIdeal.Joined

end
-- ==== Proof.RefValue.lean ====
/-
  The reference, read index by index over the extended reals. After building the joined matrix it
  applies the two dense layers with the host's operations: a dot_general over the 96 features, the
  bias row spread down the rows, tanh; then a dot_general over the 64 hidden units, the second
  bias, tanh. Read at node `r`, output `j`, this is the perceptron on row `r` of the joined
  matrix: the host's product is the plain sum over the contracted index and the host's tanh is
  the same function as the vector unit's.
-/
import proofs.«135378_j26182120636656_1_alg».proof.Proof.Gen.ReferenceIdeal.Read
import proofs.«135378_j26182120636656_1_alg».proof.Proof.Mlp

noncomputable section

namespace Cert.ReferenceIdeal.RefValue

open Idealize.ShloMosaic Idealize.ShloMosaic.ValueIdx Idealize.SL.Sem
open Cert.ReferenceIdeal Cert.ReferenceIdeal.Read

variable (x0 : FVec Ideal S100000x32 .f32) (x1 : (⟨S2x1600000, .i32⟩ : BufTy).Contents (Elt Ideal)) (x2 : FVec Ideal S1600000x1 .f32)
  (x3 : FVec Ideal S96x64 .f32) (x4 : FVec Ideal S64 .f32) (x5 : FVec Ideal S64x64 .f32) (x6 : FVec Ideal S64 .f32)

/-- The first layer's stage at node `r`, unit `k`: the hidden unit of row `r` of the joined matrix. -/
theorem hidden_stage (r : Fin 100000) (k : Fin 64) :
    val_main_v33 (F := Ideal) x0 x1 x2 x3 x4 (ix2 r k)
      = Cert.Mlp.hidden (Cert.Mlp.rowOf (val_main_v28 (F := Ideal) x0 x1 x2) r) x3 x4 k := by
  have el : ∀ q : Fin 96, lidx_main_v29 (ix2 r k) q = ix2 r q := fun q =>
    funext fun a => Fin.ext (by match a with | ⟨0, _⟩ => rfl | ⟨1, _⟩ => rfl)
  have er : ∀ q : Fin 96, ridx_main_v29 (ix2 r k) q = ix2 q k := fun q =>
    funext fun a => Fin.ext (by match a with | ⟨0, _⟩ => rfl | ⟨1, _⟩ => rfl)
  have eb : idx_main_v30 (idx_main_v31 (ix2 r k)) = ix1 k :=
    funext fun a => Fin.ext (by match a with | ⟨0, _⟩ => rfl)
  unfold Cert.Mlp.hidden Cert.Mlp.rowOf
  refine (val_main_v33_apply (F := Ideal) x0 x1 x2 x3 x4 (ix2 r k)).trans ?_
  refine (Ideal.hostUnary_tanh_def (φ := .f32) _).trans (congrArg Ideal.tanh ?_)
  refine (val_main_v32_apply (F := Ideal) x0 x1 x2 x3 x4 (ix2 r k)).trans ?_
  refine (Ideal.addf_def (φ := .f32) _ _).trans (congrArg₂ (· + ·) ?_ ?_)
  · refine (val_main_v29_apply x0 x1 x2 x3 (ix2 r k)).trans (Finset.sum_congr rfl fun q _ => ?_)
    exact congrArg₂ (· * ·) (congrArg (val_main_v28 (F := Ideal) x0 x1 x2) (el q)) (congrArg x3 (er q))
  · exact (val_main_v31_apply (F := Ideal) x4 (ix2 r k)).trans ((val_main_v30_apply (F := Ideal) x4 _).trans (congrArg x4 eb))

/-- The result at node `r`, output `j`: the perceptron on row `r` of the joined matrix. -/
theorem result_at (r : Fin 100000) (j : Fin 64) :
    val_main_v38 (F := Ideal) x0 x1 x2 x3 x4 x5 x6 (ix2 r j)
      = Cert.Mlp.out (Cert.Mlp.rowOf (val_main_v28 (F := Ideal) x0 x1 x2) r) x3 x4 x5 x6 j := by
  have el : ∀ k : Fin 64, lidx_main_v34 (ix2 r j) k = ix2 r k := fun k =>
    funext fun a => Fin.ext (by match a with | ⟨0, _⟩ => rfl | ⟨1, _⟩ => rfl)
  have er : ∀ k : Fin 64, ridx_main_v34 (ix2 r j) k = ix2 k j := fun k =>
    funext fun a => Fin.ext (by match a with | ⟨0, _⟩ => rfl | ⟨1, _⟩ => rfl)
  have eb : idx_main_v35 (idx_main_v36 (ix2 r j)) = ix1 j :=
    funext fun a => Fin.ext (by match a with | ⟨0, _⟩ => rfl)
  unfold Cert.Mlp.out
  refine (val_main_v38_apply (F := Ideal) x0 x1 x2 x3 x4 x5 x6 (ix2 r j)).trans ?_
  refine (Ideal.hostUnary_tanh_def (φ := .f32) _).trans (congrArg Ideal.tanh ?_)
  refine (val_main_v37_apply (F := Ideal) x0 x1 x2 x3 x4 x5 x6 (ix2 r j)).trans ?_
  refine (Ideal.addf_def (φ := .f32) _ _).trans (congrArg₂ (· + ·) ?_ ?_)
  · refine (val_main_v34_apply x0 x1 x2 x3 x4 x5 (ix2 r j)).trans (Finset.sum_congr rfl fun k _ => ?_)
    exact congrArg₂ (· * ·) ((congrArg (val_main_v33 (F := Ideal) x0 x1 x2 x3 x4) (el k)).trans (hidden_stage x0 x1 x2 x3 x4 r k))
      (congrArg x5 (er k))
  · exact (val_main_v36_apply (F := Ideal) x6 (ix2 r j)).trans ((val_main_v35_apply (F := Ideal) x6 _).trans (congrArg x6 eb))

/-- The reference's result array is the network of its joined matrix and the parameter arrays. -/
theorem result_eq :
    val_main_v38 (F := Ideal) x0 x1 x2 x3 x4 x5 x6 = Cert.Mlp.net (val_main_v28 (F := Ideal) x0 x1 x2) x3 x4 x5 x6 := by
  funext i
  obtain ⟨r, j, rfl⟩ : ∃ (r : Fin 100000) (j : Fin 64), i = ix2 r j := ⟨i 0, i 1, eq_ix2 i⟩
  exact (result_at x0 x1 x2 x3 x4 x5 x6 r j).trans (Cert.Mlp.net_apply _ x3 x4 x5 x6 r j).symm

end Cert.ReferenceIdeal.RefValue

end
-- ==== Proof.lean ====
/-
  The node network: message passing over an edge list followed by a two-layer perceptron per node.
  Both programs build the perceptron's [100000, 96] input with the same host operations — gather the
  node features along each row of the edge list, scale by the edge weight, sum into the nodes the
  other row names, and lay the two sums beside the features. The kernel then runs the perceptron in
  one region over twenty tiles of 5000 nodes, rounding to bf16 on the way into the matrix unit; the
  reference runs it with two host matrix products. Over the extended reals the rounding is the
  identity, a matrix product into a zero accumulator and the host's dot_general are the same sum,
  and the two tanh are one function, and the perceptron acts on each node's row by itself; so the
  kernel's twenty tiles together and the reference's whole product are the same array: the network
  of the joined matrix. Nothing is used of the joined matrix except that both programs build it by
  the same operations, and no law that needs finite inputs.

  The frames: each kernel program runs its host operations, which write buffers of their own, and
  its region, whose body only loads its five input blocks and overwrites its output block; the
  reference is a straight line of host operations. The idealization rewrote nothing, so the kernel
  and its idealization have the same text and the claim relating them is empty.
-/
import proofs.«135378_j26182120636656_1_alg».proof.Defs
import proofs.«135378_j26182120636656_1_alg».proof.Proof.Gen.Kernel
import proofs.«135378_j26182120636656_1_alg».proof.Proof.Gen.KernelIdeal
import proofs.«135378_j26182120636656_1_alg».proof.Proof.Gen.ReferenceIdeal
import proofs.«135378_j26182120636656_1_alg».proof.Proof.Gen.Pre_finite_inputs
import proofs.«135378_j26182120636656_1_alg».proof.Proof.Gen.ReferenceIdeal.Run
import proofs.«135378_j26182120636656_1_alg».proof.Proof.Gen.ReferenceIdeal.Read
import proofs.«135378_j26182120636656_1_alg».proof.Proof.BitsRegion
import proofs.«135378_j26182120636656_1_alg».proof.Proof.KernelValue
import proofs.«135378_j26182120636656_1_alg».proof.Proof.Joined
import proofs.«135378_j26182120636656_1_alg».proof.Proof.RefValue

noncomputable section

namespace Cert.Proof

open Idealize.ShloMosaic Idealize.ShloMosaic.TcCoe Idealize.SL.Sem

/-- The word-level kernel runs to its end and leaves its arguments as launched. -/
theorem frame_kernel : Cert.frame_Kernel (hKernel := Cert.Kernel.Gen.facts) (hPre_finite_inputs := Cert.Pre_finite_inputs.Gen.facts) :=
  fun m ρ _ => Cert.Kernel.Region.frame m ρ

/-- So does its idealization. -/
theorem frame_ideal : Cert.frame_KernelIdeal (hKernelIdeal := Cert.KernelIdeal.Gen.facts) (hPre_finite_inputs := Cert.Pre_finite_inputs.Gen.facts) :=
  fun m ρ _ => Cert.KernelIdeal.Region.frame m ρ

/-- The reference is host operations only: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealized kernel's run with its result at the network of the joined matrix, the joined matrix spelt as the
    reference's stage of the three arrays it is built from. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v29)
            = Cert.Mlp.net (Cert.ReferenceIdeal.Read.val_main_v28 (F := Ideal)
                  (m ((c.tc : Thread Cert.KernelIdeal.nD Cert.KernelIdeal.τ).loc Cert.KernelIdeal.main_arg0))
                  (m ((c.tc : Thread Cert.KernelIdeal.nD Cert.KernelIdeal.τ).loc Cert.KernelIdeal.main_arg1))
                  (m ((c.tc : Thread Cert.KernelIdeal.nD Cert.KernelIdeal.τ).loc Cert.KernelIdeal.main_arg2)))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
                (m ((c.tc : Thread Cert.KernelIdeal.nD Cert.KernelIdeal.τ).loc Cert.KernelIdeal.main_arg5))
                (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) :=
  (θ_run Cert.KernelIdeal.defs _ _).mono
    (fun r h c => ⟨(h c).1.trans (congrArg (fun M => Cert.Mlp.net M _ _ _ _) (Cert.KernelIdeal.Joined.joined_eq m c)), (h c).2⟩)
    (Cert.KernelIdeal.Whole.run m ρ)

/-- The two idealized programs, from memories agreeing on the arguments, end with the same result array: the network
    of the joined matrix. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v38_eq (F := Ideal) _ _ _ _ _ _ _).trans
    (Cert.ReferenceIdeal.RefValue.result_eq _ _ _ _ _ _ _)).trans ?_
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
